-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S128 .f32) (main_arg7 : FVec F S128x1 .f32) (main_arg8 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg7
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x1 .f32) (main_arg8 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S1x1 : Shape := ⟨2, ![1, 1]⟩

abbrev nBuf : Space → Nat
  | .hbm => 106
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S1700000x1, .f32⟩
  | .hbm, ⟨50, _⟩ => ⟨S100000x128, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x128, .f32⟩
  | .hbm, ⟨78, _⟩ => ⟨S1700000x128, .f32⟩
  | .hbm, ⟨79, _⟩ => ⟨S1700000x128, .f32⟩
  | .hbm, ⟨80, _⟩ => ⟨S_, .f32⟩
  | .hbm, ⟨81, _⟩ => ⟨S100000x128, .f32⟩
  | .hbm, ⟨82, _⟩ => ⟨S1700000x1, .i32⟩
  | .hbm, ⟨83, _⟩ => ⟨S100000x128, .f32⟩
  | .hbm, ⟨84, _⟩ => ⟨S1x128, .f32⟩
  | .hbm, ⟨85, _⟩ => ⟨S100000x128, .f32⟩
  | .hbm, ⟨86, _⟩ => ⟨S_, .f32⟩
  | .hbm, ⟨87, _⟩ => ⟨S512x128, .f32⟩
  | .hbm, ⟨88, _⟩ => ⟨S100000x1, .i32⟩
  | .hbm, ⟨89, _⟩ => ⟨S512x128, .f32⟩
  | .hbm, ⟨90, _⟩ => ⟨S_, .f32⟩
  | .hbm, ⟨91, _⟩ => ⟨S100000, .f32⟩
  | .hbm, ⟨92, _⟩ => ⟨S_, .f32⟩
  | .hbm, ⟨93, _⟩ => ⟨S512, .f32⟩
  | .hbm, ⟨94, _⟩ => ⟨S100000x1, .i32⟩
  | .hbm, ⟨95, _⟩ => ⟨S512, .f32⟩
  | .hbm, ⟨96, _⟩ => ⟨S_, .f32⟩
  | .hbm, ⟨97, _⟩ => ⟨S512, .f32⟩
  | .hbm, ⟨98, _⟩ => ⟨S512, .f32⟩
  | .hbm, ⟨99, _⟩ => ⟨S512x1, .f32⟩
  | .hbm, ⟨100, _⟩ => ⟨S512x128, .f32⟩
  | .hbm, ⟨101, _⟩ => ⟨S512x128, .f32⟩
  | .hbm, ⟨102, _⟩ => ⟨S512x1, .f32⟩
  | .hbm, ⟨103, _⟩ => ⟨S1x1, .f32⟩
  | .hbm, ⟨104, _⟩ => ⟨S512x1, .f32⟩
  | .hbm, ⟨105, _⟩ => ⟨S512x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_13 : Ref sig .tc := ⟨.hbm, 90, rfl⟩
abbrev main_v64 : Ref sig .tc := ⟨.hbm, 91, rfl⟩
abbrev main_cst_14 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_15 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S1x1 : Shape := ⟨2, ![1, 1]⟩

abbrev nBuf : Space → Nat
  | .hbm => 114
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S1700000x1, .f32⟩
  | .hbm, ⟨50, _⟩ => ⟨S100000x128, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x128, .f32⟩
  | .hbm, ⟨82, _⟩ => ⟨S1700000x128, .f32⟩
  | .hbm, ⟨83, _⟩ => ⟨S1700000x128, .f32⟩
  | .hbm, ⟨84, _⟩ => ⟨S_, .f32⟩
  | .hbm, ⟨85, _⟩ => ⟨S100000x128, .f32⟩
  | .hbm, ⟨86, _⟩ => ⟨S1700000x1, .i32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S_, .f32⟩
  | .hbm, ⟨92, _⟩ => ⟨S100000x128, .f32⟩
  | .hbm, ⟨93, _⟩ => ⟨S100000x128, .f32⟩
  | .hbm, ⟨94, _⟩ => ⟨S_, .f32⟩
  | .hbm, ⟨95, _⟩ => ⟨S512x128, .f32⟩
  | .hbm, ⟨96, _⟩ => ⟨S100000x1, .i32⟩
  | .hbm, ⟨97, _⟩ => ⟨S512x128, .f32⟩
  | .hbm, ⟨98, _⟩ => ⟨S_, .f32⟩
  | .hbm, ⟨99, _⟩ => ⟨S100000, .f32⟩
  | .hbm, ⟨100, _⟩ => ⟨S_, .f32⟩
  | .hbm, ⟨101, _⟩ => ⟨S512, .f32⟩
  | .hbm, ⟨102, _⟩ => ⟨S100000x1, .i32⟩
  | .hbm, ⟨103, _⟩ => ⟨S512, .f32⟩
  | .hbm, ⟨104, _⟩ => ⟨S_, .f32⟩
  | .hbm, ⟨105, _⟩ => ⟨S512, .f32⟩
  | .hbm, ⟨106, _⟩ => ⟨S512, .f32⟩
  | .hbm, ⟨107, _⟩ => ⟨S512x1, .f32⟩
  | .hbm, ⟨108, _⟩ => ⟨S512x128, .f32⟩
  | .hbm, ⟨109, _⟩ => ⟨S512x128, .f32⟩
  | .hbm, ⟨110, _⟩ => ⟨S512x1, .f32⟩
  | .hbm, ⟨111, _⟩ => ⟨S1x1, .f32⟩
  | .hbm, ⟨112, _⟩ => ⟨S512x1, .f32⟩
  | .hbm, ⟨113, _⟩ => ⟨S512x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_call2_cst : Ref sig .tc := ⟨.hbm, 91, rfl⟩
abbrev main_call2_v0 : Ref sig .tc := ⟨.hbm, 92, rfl⟩
abbrev main_v64 : Ref sig .tc := ⟨.hbm, 93, rfl⟩
abbrev main_cst_12 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_13 : Ref sig .tc := ⟨.hbm, 98, rfl⟩
abbrev main_v68 : Ref sig .tc := ⟨.hbm, 99, rfl⟩
abbrev main_cst_14 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_15 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x1_S512x1_1_0_0_1_n_n_wf : DotDims.WF S512x128 S128x1 S512x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.KernelRun.lean ====
/-
  The idealized kernel's run with its RESULT named. The generated frame certificate of this four-region program proves
  that every weakly fair execution terminates with the nine argument arrays unchanged; on the way it shows that every
  unscoped buffer ends at the fold `Gen.W10` of the launch memory through the host stretches and the four regions,
  and then forgets all but the arguments. Here the same run keeps one more buffer: the result `main_v76` ends at
  `Gen.W10 m ρ c main_v76`. What that fold IS, as a function of the arguments, is read in the other modules.
-/
import proofs.«151294_j29557964931482_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the fold's value and
    the argument arrays as launched. -/
theorem run : θ_run defs (onTc (τ := τ) (main (F := F))) ⟨m, fun _ => 0, ρ⟩ (fun r => ∀ c : Dev nD,
      r.2.mem ((c.tc : Thread nD τ).loc main_v76) = W10 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v76 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩)

end Cert.KernelIdeal.RunValue

end
-- ==== Proof.Fold0.lean ====
/-
  The kernel's buffers when its first region is entered and left, as functions of the arguments. Before the first matrix
  product the kernel runs the same host operations as the reference: the edge list with self loops appended (source and
  destination index vectors), the in-degrees by a scatter-add of ones, their inverse square roots where positive, and the
  per-edge coefficient dinv[src] * dinv[dst]. So the three buffers the later stretches read again — the source indices,
  the destination indices and the coefficient column — hold exactly the reference's stages of the edge array, and the
  argument arrays are untouched. The first region writes only its output, so all of these survive it unchanged.
-/
import proofs.«151294_j29557964931482_1_alg».proof.Proof.Gen.KernelIdeal.Frame
import proofs.«151294_j29557964931482_1_alg».proof.Proof.RefReadPatched

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## At the first region's entry -/

/-- The source indices with the self loops appended. -/
theorem W3_v3 (c : Dev nD) : W3 m ρ c (Proc.devRef .tc main_v3) = Cert.ReferenceIdeal.ReadP.val_main_v3 (F := F) (m ((c.tc : Thread nD τ).loc main_arg1)) := by
  dsimp only [W3, W2, W1, W0, hostOps0, hostOps0_1, hostOps0_2]
  after_results <;> rfl

/-- The destination indices with the self loops appended. -/
theorem W3_v6 (c : Dev nD) : W3 m ρ c (Proc.devRef .tc main_v6) = Cert.ReferenceIdeal.ReadP.val_main_v6 (F := F) (m ((c.tc : Thread nD τ).loc main_arg1)) := by
  dsimp only [W3, W2, W1, W0, hostOps0, hostOps0_1, hostOps0_2]
  after_results <;> rfl

set_option maxHeartbeats 4000000 in
/-- The per-edge coefficient, as a column: the product of the two end points' inverse square root degrees. -/
theorem W3_v30 (c : Dev nD) : W3 m ρ c (Proc.devRef .tc main_v30) = Cert.ReferenceIdeal.ReadP.val_main_v30 (F := F) (m ((c.tc : Thread nD τ).loc main_arg1)) := by
  dsimp only [W3, W2, W1, W0, hostOps0, hostOps0_1, hostOps0_2]
  after_results_simp <;> rfl

/-- No host operation before the first region writes argument 0. -/
theorem W3_arg0 (c : Dev nD) : W3 m ρ c (Proc.devRef .tc main_arg0) = m ((c.tc : Thread nD τ).loc main_arg0) := by
  dsimp only [W3, W2, W1, W0, hostOps0, hostOps0_1, hostOps0_2]
  after_results <;> rfl

/-- No host operation before the first region writes argument 3. -/
theorem W3_arg3 (c : Dev nD) : W3 m ρ c (Proc.devRef .tc main_arg3) = m ((c.tc : Thread nD τ).loc main_arg3) := by
  dsimp only [W3, W2, W1, W0, hostOps0, hostOps0_1, hostOps0_2]
  after_results <;> rfl

/-- No host operation before the first region writes argument 4. -/
theorem W3_arg4 (c : Dev nD) : W3 m ρ c (Proc.devRef .tc main_arg4) = m ((c.tc : Thread nD τ).loc main_arg4) := by
  dsimp only [W3, W2, W1, W0, hostOps0, hostOps0_1, hostOps0_2]
  after_results <;> rfl

/-! ## At the first region's exit: it writes its output array only -/

theorem W4_v3 (c : Dev nD) : W4 m ρ c (Proc.devRef .tc main_v3) = Cert.ReferenceIdeal.ReadP.val_main_v3 (F := F) (m ((c.tc : Thread nD τ).loc main_arg1)) :=
  (W4_of_ne m ρ c main_v3 (by decide)).trans (W3_v3 m ρ c)
theorem W4_v6 (c : Dev nD) : W4 m ρ c (Proc.devRef .tc main_v6) = Cert.ReferenceIdeal.ReadP.val_main_v6 (F := F) (m ((c.tc : Thread nD τ).loc main_arg1)) :=
  (W4_of_ne m ρ c main_v6 (by decide)).trans (W3_v6 m ρ c)
theorem W4_v30 (c : Dev nD) : W4 m ρ c (Proc.devRef .tc main_v30) = Cert.ReferenceIdeal.ReadP.val_main_v30 (F := F) (m ((c.tc : Thread nD τ).loc main_arg1)) :=
  (W4_of_ne m ρ c main_v30 (by decide)).trans (W3_v30 m ρ c)
theorem W4_arg4 (c : Dev nD) : W4 m ρ c (Proc.devRef .tc main_arg4) = m ((c.tc : Thread nD τ).loc main_arg4) :=
  (W4_of_ne m ρ c main_arg4 (by decide)).trans (W3_arg4 m ρ c)

end Cert.KernelIdeal.Fold

end
-- ==== Proof.Region0.lean ====
/-
  Region 0 of the idealized kernel: a [100000, 128] by [128, 128] matrix product computed twenty row blocks of 5000 rows at a
  time. At a grid point the body loads a [5000, 128] block of the left operand and the whole right operand, changes their
  float format (the identity on the extended reals) and multiplies them into a zero accumulator. Entry (r, q) of a block's
  product is the sum over k of left (r, k) times right (k, q): it depends on the block only through its own row, so the
  twenty blocks, which tile the rows, leave ONE function of the two input arrays — the whole product, index by index.
  A sum over the 128 contraction indices needs no order: addition on the extended reals is commutative and associative.
-/
import proofs.«151294_j29557964931482_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat Cfg Window)

/-- Row (i 0), column k of the left operand, and row k, column (i 1) of the right: the two entries that meet at
    contraction index k in entry i of the product. -/
abbrev leftAt (i : S100000x128.Idx) (k : Fin 128) : S100000x128.Idx := fun a => match a with
  | ⟨0, _⟩ => ⟨(i 0).val, (i 0).isLt⟩
  | ⟨1, _⟩ => ⟨k.val, k.isLt⟩
abbrev rightAt (i : S100000x128.Idx) (k : Fin 128) : S128x128.Idx := fun a => match a with
  | ⟨0, _⟩ => ⟨k.val, k.isLt⟩
  | ⟨1, _⟩ => ⟨(i 1).val, (i 1).isLt⟩
/-- The same inside one [5000, 128] block. -/
abbrev leftAtBlock (j : S5000x128.Idx) (k : Fin 128) : S5000x128.Idx := fun a => match a with
  | ⟨0, _⟩ => ⟨(j 0).val, (j 0).isLt⟩
  | ⟨1, _⟩ => ⟨k.val, k.isLt⟩
abbrev rightAtBlock (j : S5000x128.Idx) (k : Fin 128) : S128x128.Idx := fun a => match a with
  | ⟨0, _⟩ => ⟨k.val, k.isLt⟩
  | ⟨1, _⟩ => ⟨(j 1).val, (j 1).isLt⟩

/-- What the region computes, as one function of its two input arrays: the matrix product, entry by entry. -/
def rowsTimes (X : FVec Ideal S100000x128 .f32) (W : FVec Ideal S128x128 .f32) : FVec Ideal S100000x128 .f32 :=
  fun i => ∑ k : Fin 128, X (leftAt i k) * W (rightAt i k)

local notation "D" => dot_S5000x128_S128x128_S5000x128_1_0_0_1_n_n

theorem lhs0 (j : S5000x128.Idx) (q : (dot_S5000x128_S128x128_S5000x128_1_0_0_1_n_n).contr.Idx) :
    ((dot_S5000x128_S128x128_S5000x128_1_0_0_1_n_n).lhsIdx j q 0).val = (j 0).val := by
  unfold DotDims.lhsIdx
  rw [dif_neg (show ¬(0 : Fin S5000x128.rank) ∈ (dot_S5000x128_S128x128_S5000x128_1_0_0_1_n_n).lhsBatch by decide), dif_pos (show (0 : Fin S5000x128.rank) ∈ (dot_S5000x128_S128x128_S5000x128_1_0_0_1_n_n).lhsNonContracting by decide)]
  rfl
theorem rhs1 (j : S5000x128.Idx) (q : (dot_S5000x128_S128x128_S5000x128_1_0_0_1_n_n).contr.Idx) :
    ((dot_S5000x128_S128x128_S5000x128_1_0_0_1_n_n).rhsIdx j q 1).val = (j 1).val := by
  unfold DotDims.rhsIdx
  rw [dif_neg (show ¬(1 : Fin S128x128.rank) ∈ (dot_S5000x128_S128x128_S5000x128_1_0_0_1_n_n).rhsBatch by decide), dif_pos (show (1 : Fin S128x128.rank) ∈ (dot_S5000x128_S128x128_S5000x128_1_0_0_1_n_n).rhsNonContracting by decide)]
  rfl

/-- The body's stored value at a block element (r, q): the sum over k of the left block at (r, k) times the right
    operand at (k, q) — the product into a zero accumulator, the format changes the identity. -/
theorem pay_apply (x0 : Vec Ideal S5000x128 .f32) (x1 : Vec Ideal S128x128 .f32) (j : S5000x128.Idx) :
    k0_pay1 (F := Ideal) x0 x1 j = ∑ k : Fin 128, x0 (leftAtBlock j k) * x1 (rightAtBlock j k) := by
  unfold k0_pay1
  refine (Ideal.matmul_constant_zero_apply (dot_S5000x128_S128x128_S5000x128_1_0_0_1_n_n) none _ _ j).trans ?_
  rw [← Equiv.sum_comp (ValueIdx.contrEquiv1 (dot_S5000x128_S128x128_S5000x128_1_0_0_1_n_n) 128 rfl rfl).symm]
  refine Finset.sum_congr rfl fun k _ => ?_
  have hk := ValueIdx.contrEquiv1_symm_val (dot_S5000x128_S128x128_S5000x128_1_0_0_1_n_n) 128 rfl rfl k
  have el : (dot_S5000x128_S128x128_S5000x128_1_0_0_1_n_n).lhsIdx j ((ValueIdx.contrEquiv1 (dot_S5000x128_S128x128_S5000x128_1_0_0_1_n_n) 128 rfl rfl).symm k) = leftAtBlock j k := funext fun a => Fin.ext (by
    match a with
    | ⟨0, _⟩ => exact lhs0 _ _
    | ⟨1, _⟩ => exact ((dot_S5000x128_S128x128_S5000x128_1_0_0_1_n_n).lhsIdx_val_of_single rfl j _).trans hk)
  have er : (dot_S5000x128_S128x128_S5000x128_1_0_0_1_n_n).rhsIdx j ((ValueIdx.contrEquiv1 (dot_S5000x128_S128x128_S5000x128_1_0_0_1_n_n) 128 rfl rfl).symm k) = rightAtBlock j k := funext fun a => Fin.ext (by
    match a with
    | ⟨0, _⟩ => exact ((dot_S5000x128_S128x128_S5000x128_1_0_0_1_n_n).rhsIdx_val_of_single rfl j _).trans hk
    | ⟨1, _⟩ => exact rhs1 _ _)
  show x0 ((dot_S5000x128_S128x128_S5000x128_1_0_0_1_n_n).lhsIdx j ((ValueIdx.contrEquiv1 (dot_S5000x128_S128x128_S5000x128_1_0_0_1_n_n) 128 rfl rfl).symm k)) * x1 ((dot_S5000x128_S128x128_S5000x128_1_0_0_1_n_n).rhsIdx j ((ValueIdx.contrEquiv1 (dot_S5000x128_S128x128_S5000x128_1_0_0_1_n_n) 128 rfl rfl).symm k)) = _
  rw [el, er]

theorem hz : (![0, 0] : Fin 2 → Nat) = fun _ => 0 := funext fun a => by fin_cases a <;> rfl

/-- The printed index maps over the grid: point t reads and writes row block t, column block 0; the right operand's window stays at (0, 0). -/
theorem idx_facts : ∀ t : Fin cfg0.N, win0_0.index t (0 : Fin 2) = win0_2.index t (0 : Fin 2)
    ∧ win0_0.index t (1 : Fin 2) = 0 ∧ win0_2.index t (1 : Fin 2) = 0
    ∧ win0_1.index t (0 : Fin 2) = 0 ∧ win0_1.index t (1 : Fin 2) = 0
    ∧ win0_2.index t (0 : Fin 2) = t.val :=
  (by decide +kernel : ∀ t : Fin grid0.N, _)

section
variable (V : (c : Dev nD) → (b : Ref sig .tc) → Buf (Elt Ideal) ((c : Thread nD τ).loc b))

/-- What point t writes back is block t of the whole product of the two input arrays as the region finds them. -/
theorem flushed_eq (c : Dev nD) (t : Fin cfg0.N) :
    (dat0 V c).flushed 2 t = ((cfg0.win 2).blk t).view.read (Elt Ideal) (rowsTimes (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  show k0_pay1 (iblk0 V c 0 t) (iblk0 V c 1 t) j = rowsTimes (V c main_arg0) (V c main_arg3) (((cfg0.win 2).blk t).view.emb j)
  refine (pay_apply (iblk0 V c 0 t) (iblk0 V c 1 t) j).trans ?_
  unfold rowsTimes
  refine Finset.sum_congr rfl fun k _ => ?_
  have hL : iblk0 V c 0 t (leftAtBlock j k) = V c main_arg0 (leftAt (((cfg0.win 2).blk t).view.emb j) k) := by
    show V c main_arg0 (((cfg0.win 0).blk t).view.emb (leftAtBlock j k)) = _
    refine congrArg (V c main_arg0) ?_
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have hR : iblk0 V c 1 t (rightAtBlock j k) = V c main_arg3 (rightAt (((cfg0.win 2).blk t).view.emb j) k) := by
    show V c main_arg3 (((cfg0.win 1).blk t).view.emb (rightAtBlock j k)) = _
    refine congrArg (V c main_arg3) ?_
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [hL, hR]

/-- An index of the array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v31).slice (win0_2.rect t)).set ↔ _
  rw [View.set_slice_whole, Rect.mem_set_unit]
  exact Iff.rfl

/-- The twenty row blocks tile the array: row r is in the block of point r / 5000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hlt : (i 0).val / 5000 < grid0.N := lt_of_lt_of_eq (by omega) N_0.symm
  obtain ⟨e0, e1, e2, e3, e4, e5⟩ := idx_facts ⟨(i 0).val / 5000, hlt⟩
  have e5' : win0_2.index ⟨(i 0).val / 5000, hlt⟩ (0 : Fin 2) = (i 0).val / 5000 := e5
  refine ⟨⟨(i 0).val / 5000, hlt⟩, flush0_2 _, ?_⟩
  rw [mem_blk]
  intro a
  match a with
  | ⟨0, _⟩ => show win0_2.index ⟨(i 0).val / 5000, hlt⟩ (0 : Fin 2) * 5000 ≤ (i 0).val ∧ (i 0).val < win0_2.index ⟨(i 0).val / 5000, hlt⟩ (0 : Fin 2) * 5000 + 5000; omega
  | ⟨1, _⟩ => show win0_2.index ⟨(i 0).val / 5000, hlt⟩ (1 : Fin 2) * 128 ≤ (i 1).val ∧ (i 1).val < win0_2.index ⟨(i 0).val / 5000, hlt⟩ (1 : Fin 2) * 128 + 128; omega

/-- The output array after the region: the whole product of the two input arrays as the region finds them. -/
theorem final (c : Dev nD) : (dat0 V c).arrAt 2 cfg0.N = rowsTimes (V c main_arg0) (V c main_arg3) :=
  (dat0 V c).arrAt_eq_of_cover 2 (rowsTimes (V c main_arg0) (V c main_arg3)) (fun t _ => flushed_eq V c t) cover

end

end Cert.KernelIdeal.Region0

end
-- ==== Proof.Region1.lean ====
/-
  Region 1 of the idealized kernel: the fused bias-add and ReLU over one [100000, 128] array, twenty row blocks of 5000 rows.
  At a grid point the body loads a [5000, 128] block of the aggregated features and the one [1, 128] bias row, adds the row
  to every row of the block and clamps at zero. The twenty blocks are consecutive row ranges that tile the array, and the
  value stored at row r, column q depends only on the input at (r, q) and the bias at (0, q): so the output array ends
  holding ONE function of the two input arrays, index by index — max (A (r, q) + B (0, q)) 0 — whatever the block size.
-/
import proofs.«151294_j29557964931482_1_alg».proof.Proof.Gen.KernelIdeal.Frame
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat Cfg Window)

variable {F : FTy → Type} [FloatOps F]

/-- The bias row's entry that a block element at column q meets: (0, q). -/
abbrev biasAtBlock (j : S5000x128.Idx) : S1x128.Idx := fun a => match a with
  | ⟨0, _⟩ => ⟨0, Nat.one_pos⟩
  | ⟨1, _⟩ => ⟨(j 1).val, (j 1).isLt⟩

/-- The same for an element of the whole array. -/
abbrev biasAt (i : S100000x128.Idx) : S1x128.Idx := fun a => match a with
  | ⟨0, _⟩ => ⟨0, Nat.one_pos⟩
  | ⟨1, _⟩ => ⟨(i 1).val, (i 1).isLt⟩

/-- What the region computes, as one function of its two input arrays: the bias row added to every row, clamped at zero. -/
def biasRelu (A : S100000x128.Idx → Elt F .f32) (B : S1x128.Idx → Elt F .f32) : S100000x128.Idx → Elt F .f32 :=
  fun i => FloatOps.maximumf (FloatOps.addf (A i) (B (biasAt i))) (FloatOps.ofBits .f32 0x00000000#32)

/-- The body's stored value at a block element: the block's element plus the bias at its column, clamped at zero
    (the two shape casts are of a shape to itself; the broadcast repeats the one row). -/
theorem pay_apply (v0 : Vec F S1x128 .f32) (v4 : Vec F S5000x128 .f32) (j : S5000x128.Idx) :
    k1_pay1 v0 v4 j = FloatOps.maximumf (FloatOps.addf (v4 j) (v0 (biasAtBlock j))) (FloatOps.ofBits .f32 0x00000000#32) := by
  unfold k1_pay1
  rw [shapeCast_self, shapeCast_self, shapeCast_self]
  show FloatOps.maximumf (FloatOps.addf (v4 j) (broadcastTo S5000x128 v0 broadcasts_S1x128_S5000x128 j)) _ = _
  rw [broadcastTo_apply v0 broadcasts_S1x128_S5000x128 j (biasAtBlock j) (fun a => match a with
    | ⟨0, _⟩ => by show 0 = if (1 : Nat) = 1 then 0 else (j 0).val; rw [if_pos rfl]
    | ⟨1, _⟩ => by show (j 1).val = if (128 : Nat) = 1 then 0 else (j 1).val; rw [if_neg (by decide)])]
  rfl

theorem hz : (![0, 0] : Fin 2 → Nat) = fun _ => 0 := funext fun a => by fin_cases a <;> rfl

/-- The printed index maps over the grid: point t reads and writes row block t, column block 0; the bias window stays at (0, 0). -/
theorem idx_facts : ∀ t : Fin cfg1.N, win1_0.index t (0 : Fin 2) = win1_2.index t (0 : Fin 2)
    ∧ win1_0.index t (1 : Fin 2) = 0 ∧ win1_2.index t (1 : Fin 2) = 0
    ∧ win1_1.index t (0 : Fin 2) = 0 ∧ win1_1.index t (1 : Fin 2) = 0
    ∧ win1_2.index t (0 : Fin 2) = t.val :=
  (by decide +kernel : ∀ t : Fin grid1.N, _)

section
variable (V : (c : Dev nD) → (b : Ref sig .tc) → Buf (Elt F) ((c : Thread nD τ).loc b))

/-- What point t writes back is block t of `biasRelu` of the two input arrays as the region finds them. -/
theorem flushed_eq (c : Dev nD) (t : Fin cfg1.N) :
    (dat1 V c).flushed 2 t = ((cfg1.win 2).blk t).view.read (Elt F) (biasRelu (V c main_v43) (V c main_v44)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e0, e1, e2, e3, e4, e5⟩ := idx_facts t
  funext j
  show k1_pay1 (iblk1 V c 1 t) (iblk1 V c 0 t) j = biasRelu (V c main_v43) (V c main_v44) (((cfg1.win 2).blk t).view.emb j)
  refine (pay_apply (iblk1 V c 1 t) (iblk1 V c 0 t) j).trans ?_
  show FloatOps.maximumf (FloatOps.addf (V c main_v43 (((cfg1.win 0).blk t).view.emb j)) (V c main_v44 (((cfg1.win 1).blk t).view.emb (biasAtBlock j)))) _
     = FloatOps.maximumf (FloatOps.addf (V c main_v43 (((cfg1.win 2).blk t).view.emb j)) (V c main_v44 (biasAt (((cfg1.win 2).blk t).view.emb j)))) _
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (biasAtBlock j) = biasAt (((cfg1.win 2).blk t).view.emb j) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  rw [h0, h1]

/-- An index of the array is in point t's block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- The twenty row blocks tile the array: row r is in the block of point r / 5000. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hlt : (i 0).val / 5000 < grid1.N := lt_of_lt_of_eq (by omega) N_1.symm
  obtain ⟨e0, e1, e2, e3, e4, e5⟩ := idx_facts ⟨(i 0).val / 5000, hlt⟩
  have e5' : win1_2.index ⟨(i 0).val / 5000, hlt⟩ (0 : Fin 2) = (i 0).val / 5000 := e5
  refine ⟨⟨(i 0).val / 5000, hlt⟩, flush1_2 _, ?_⟩
  rw [mem_blk]
  intro a
  match a with
  | ⟨0, _⟩ => show win1_2.index ⟨(i 0).val / 5000, hlt⟩ (0 : Fin 2) * 5000 ≤ (i 0).val ∧ (i 0).val < win1_2.index ⟨(i 0).val / 5000, hlt⟩ (0 : Fin 2) * 5000 + 5000; omega
  | ⟨1, _⟩ => show win1_2.index ⟨(i 0).val / 5000, hlt⟩ (1 : Fin 2) * 128 ≤ (i 1).val ∧ (i 1).val < win1_2.index ⟨(i 0).val / 5000, hlt⟩ (1 : Fin 2) * 128 + 128; omega

/-- The output array after the region: `biasRelu` of the two input arrays as the region finds them. -/
theorem final (c : Dev nD) : (dat1 V c).arrAt 2 cfg1.N = biasRelu (V c main_v43) (V c main_v44) :=
  (dat1 V c).arrAt_eq_of_cover 2 (biasRelu (V c main_v43) (V c main_v44)) (fun t _ => flushed_eq V c t) cover

end

end Cert.KernelIdeal.Region1

end
-- ==== Proof.Region2.lean ====
/-
  Region 2 of the idealized kernel: a [100000, 128] by [128, 128] matrix product computed twenty row blocks of 5000 rows at a
  time. At a grid point the body loads a [5000, 128] block of the left operand and the whole right operand, changes their
  float format (the identity on the extended reals) and multiplies them into a zero accumulator. Entry (r, q) of a block's
  product is the sum over k of left (r, k) times right (k, q): it depends on the block only through its own row, so the
  twenty blocks, which tile the rows, leave ONE function of the two input arrays — the whole product, index by index.
  A sum over the 128 contraction indices needs no order: addition on the extended reals is commutative and associative.
-/
import proofs.«151294_j29557964931482_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.SL.Sem
open Idealize.ShloMosaic.Pipeline (Dat Cfg Window)

/-- Row (i 0), column k of the left operand, and row k, column (i 1) of the right: the two entries that meet at
    contraction index k in entry i of the product. -/
abbrev leftAt (i : S100000x128.Idx) (k : Fin 128) : S100000x128.Idx := fun a => match a with
  | ⟨0, _⟩ => ⟨(i 0).val, (i 0).isLt⟩
  | ⟨1, _⟩ => ⟨k.val, k.isLt⟩
abbrev rightAt (i : S100000x128.Idx) (k : Fin 128) : S128x128.Idx := fun a => match a with
  | ⟨0, _⟩ => ⟨k.val, k.isLt⟩
  | ⟨1, _⟩ => ⟨(i 1).val, (i 1).isLt⟩
/-- The same inside one [5000, 128] block. -/
abbrev leftAtBlock (j : S5000x128.Idx) (k : Fin 128) : S5000x128.Idx := fun a => match a with
  | ⟨0, _⟩ => ⟨(j 0).val, (j 0).isLt⟩
  | ⟨1, _⟩ => ⟨k.val, k.isLt⟩
abbrev rightAtBlock (j : S5000x128.Idx) (k : Fin 128) : S128x128.Idx := fun a => match a with
  | ⟨0, _⟩ => ⟨k.val, k.isLt⟩
  | ⟨1, _⟩ => ⟨(j 1).val, (j 1).isLt⟩

/-- What the region computes, as one function of its two input arrays: the matrix product, entry by entry. -/
def rowsTimes (X : FVec Ideal S100000x128 .f32) (W : FVec Ideal S128x128 .f32) : FVec Ideal S100000x128 .f32 :=
  fun i => ∑ k : Fin 128, X (leftAt i k) * W (rightAt i k)

local notation "D" => dot_S5000x128_S128x128_S5000x128_1_0_0_1_n_n

theorem lhs0 (j : S5000x128.Idx) (q : (dot_S5000x128_S128x128_S5000x128_1_0_0_1_n_n).contr.Idx) :
    ((dot_S5000x128_S128x128_S5000x128_1_0_0_1_n_n).lhsIdx j q 0).val = (j 0).val := by
  unfold DotDims.lhsIdx
  rw [dif_neg (show ¬(0 : Fin S5000x128.rank) ∈ (dot_S5000x128_S128x128_S5000x128_1_0_0_1_n_n).lhsBatch by decide), dif_pos (show (0 : Fin S5000x128.rank) ∈ (dot_S5000x128_S128x128_S5000x128_1_0_0_1_n_n).lhsNonContracting by decide)]
  rfl
theorem rhs1 (j : S5000x128.Idx) (q : (dot_S5000x128_S128x128_S5000x128_1_0_0_1_n_n).contr.Idx) :
    ((dot_S5000x128_S128x128_S5000x128_1_0_0_1_n_n).rhsIdx j q 1).val = (j 1).val := by
  unfold DotDims.rhsIdx
  rw [dif_neg (show ¬(1 : Fin S128x128.rank) ∈ (dot_S5000x128_S128x128_S5000x128_1_0_0_1_n_n).rhsBatch by decide), dif_pos (show (1 : Fin S128x128.rank) ∈ (dot_S5000x128_S128x128_S5000x128_1_0_0_1_n_n).rhsNonContracting by decide)]
  rfl

/-- The body's stored value at a block element (r, q): the sum over k of the left block at (r, k) times the right
    operand at (k, q) — the product into a zero accumulator, the format changes the identity. -/
theorem pay_apply (x0 : Vec Ideal S5000x128 .f32) (x1 : Vec Ideal S128x128 .f32) (j : S5000x128.Idx) :
    k2_pay1 (F := Ideal) x0 x1 j = ∑ k : Fin 128, x0 (leftAtBlock j k) * x1 (rightAtBlock j k) := by
  unfold k2_pay1
  rw [shapeCast_self]
  refine (Ideal.matmul_constant_zero_apply (dot_S5000x128_S128x128_S5000x128_1_0_0_1_n_n) none _ _ j).trans ?_
  rw [← Equiv.sum_comp (ValueIdx.contrEquiv1 (dot_S5000x128_S128x128_S5000x128_1_0_0_1_n_n) 128 rfl rfl).symm]
  refine Finset.sum_congr rfl fun k _ => ?_
  have hk := ValueIdx.contrEquiv1_symm_val (dot_S5000x128_S128x128_S5000x128_1_0_0_1_n_n) 128 rfl rfl k
  have el : (dot_S5000x128_S128x128_S5000x128_1_0_0_1_n_n).lhsIdx j ((ValueIdx.contrEquiv1 (dot_S5000x128_S128x128_S5000x128_1_0_0_1_n_n) 128 rfl rfl).symm k) = leftAtBlock j k := funext fun a => Fin.ext (by
    match a with
    | ⟨0, _⟩ => exact lhs0 _ _
    | ⟨1, _⟩ => exact ((dot_S5000x128_S128x128_S5000x128_1_0_0_1_n_n).lhsIdx_val_of_single rfl j _).trans hk)
  have er : (dot_S5000x128_S128x128_S5000x128_1_0_0_1_n_n).rhsIdx j ((ValueIdx.contrEquiv1 (dot_S5000x128_S128x128_S5000x128_1_0_0_1_n_n) 128 rfl rfl).symm k) = rightAtBlock j k := funext fun a => Fin.ext (by
    match a with
    | ⟨0, _⟩ => exact ((dot_S5000x128_S128x128_S5000x128_1_0_0_1_n_n).rhsIdx_val_of_single rfl j _).trans hk
    | ⟨1, _⟩ => exact rhs1 _ _)
  show x0 ((dot_S5000x128_S128x128_S5000x128_1_0_0_1_n_n).lhsIdx j ((ValueIdx.contrEquiv1 (dot_S5000x128_S128x128_S5000x128_1_0_0_1_n_n) 128 rfl rfl).symm k)) * x1 ((dot_S5000x128_S128x128_S5000x128_1_0_0_1_n_n).rhsIdx j ((ValueIdx.contrEquiv1 (dot_S5000x128_S128x128_S5000x128_1_0_0_1_n_n) 128 rfl rfl).symm k)) = _
  rw [el, er]

theorem hz : (![0, 0] : Fin 2 → Nat) = fun _ => 0 := funext fun a => by fin_cases a <;> rfl

/-- The printed index maps over the grid: point t reads and writes row block t, column block 0; the right operand's window stays at (0, 0). -/
theorem idx_facts : ∀ t : Fin cfg2.N, win2_0.index t (0 : Fin 2) = win2_2.index t (0 : Fin 2)
    ∧ win2_0.index t (1 : Fin 2) = 0 ∧ win2_2.index t (1 : Fin 2) = 0
    ∧ win2_1.index t (0 : Fin 2) = 0 ∧ win2_1.index t (1 : Fin 2) = 0
    ∧ win2_2.index t (0 : Fin 2) = t.val :=
  (by decide +kernel : ∀ t : Fin grid2.N, _)

section
variable (V : (c : Dev nD) → (b : Ref sig .tc) → Buf (Elt Ideal) ((c : Thread nD τ).loc b))

/-- What point t writes back is block t of the whole product of the two input arrays as the region finds them. -/
theorem flushed_eq (c : Dev nD) (t : Fin cfg2.N) :
    (dat2 V c).flushed 2 t = ((cfg2.win 2).blk t).view.read (Elt Ideal) (rowsTimes (V c main_v45) (V c main_arg5)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e0, e1, e2, e3, e4, e5⟩ := idx_facts t
  funext j
  show k2_pay1 (iblk2 V c 0 t) (iblk2 V c 1 t) j = rowsTimes (V c main_v45) (V c main_arg5) (((cfg2.win 2).blk t).view.emb j)
  refine (pay_apply (iblk2 V c 0 t) (iblk2 V c 1 t) j).trans ?_
  unfold rowsTimes
  refine Finset.sum_congr rfl fun k _ => ?_
  have hL : iblk2 V c 0 t (leftAtBlock j k) = V c main_v45 (leftAt (((cfg2.win 2).blk t).view.emb j) k) := by
    show V c main_v45 (((cfg2.win 0).blk t).view.emb (leftAtBlock j k)) = _
    refine congrArg (V c main_v45) ?_
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have hR : iblk2 V c 1 t (rightAtBlock j k) = V c main_arg5 (rightAt (((cfg2.win 2).blk t).view.emb j) k) := by
    show V c main_arg5 (((cfg2.win 1).blk t).view.emb (rightAtBlock j k)) = _
    refine congrArg (V c main_arg5) ?_
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  rw [hL, hR]

/-- An index of the array is in point t's block iff each coordinate is in the block's range on its axis. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v46).slice (win2_2.rect t)).set ↔ _
  rw [View.set_slice_whole, Rect.mem_set_unit]
  exact Iff.rfl

/-- The twenty row blocks tile the array: row r is in the block of point r / 5000. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hlt : (i 0).val / 5000 < grid2.N := lt_of_lt_of_eq (by omega) N_2.symm
  obtain ⟨e0, e1, e2, e3, e4, e5⟩ := idx_facts ⟨(i 0).val / 5000, hlt⟩
  have e5' : win2_2.index ⟨(i 0).val / 5000, hlt⟩ (0 : Fin 2) = (i 0).val / 5000 := e5
  refine ⟨⟨(i 0).val / 5000, hlt⟩, flush2_2 _, ?_⟩
  rw [mem_blk]
  intro a
  match a with
  | ⟨0, _⟩ => show win2_2.index ⟨(i 0).val / 5000, hlt⟩ (0 : Fin 2) * 5000 ≤ (i 0).val ∧ (i 0).val < win2_2.index ⟨(i 0).val / 5000, hlt⟩ (0 : Fin 2) * 5000 + 5000; omega
  | ⟨1, _⟩ => show win2_2.index ⟨(i 0).val / 5000, hlt⟩ (1 : Fin 2) * 128 ≤ (i 1).val ∧ (i 1).val < win2_2.index ⟨(i 0).val / 5000, hlt⟩ (1 : Fin 2) * 128 + 128; omega

/-- The output array after the region: the whole product of the two input arrays as the region finds them. -/
theorem final (c : Dev nD) : (dat2 V c).arrAt 2 cfg2.N = rowsTimes (V c main_v45) (V c main_arg5) :=
  (dat2 V c).arrAt_eq_of_cover 2 (rowsTimes (V c main_v45) (V c main_arg5)) (fun t _ => flushed_eq V c t) cover

end

end Cert.KernelIdeal.Region2

end
-- ==== Proof.Region3.lean ====
/-
  Region 3 of the idealized kernel: the fused bias-add and ReLU over one [100000, 128] array, twenty row blocks of 5000 rows.
  At a grid point the body loads a [5000, 128] block of the aggregated features and the one [1, 128] bias row, adds the row
  to every row of the block and clamps at zero. The twenty blocks are consecutive row ranges that tile the array, and the
  value stored at row r, column q depends only on the input at (r, q) and the bias at (0, q): so the output array ends
  holding ONE function of the two input arrays, index by index — max (A (r, q) + B (0, q)) 0 — whatever the block size.
-/
import proofs.«151294_j29557964931482_1_alg».proof.Proof.Gen.KernelIdeal.Frame
import Idealize.ShloMosaic.Lib.Pipeline.Value

set_option maxRecDepth 16384

noncomputable section

namespace Cert.KernelIdeal.Region3

open Cert.KernelIdeal Cert.KernelIdeal.Gen Idealize.ShloMosaic Idealize.ShloMosaic.TcCoe Idealize.SL.Sem
open Idealize.ShloMosaic.Pipeline (Dat Cfg Window)

variable {F : FTy → Type} [FloatOps F]

/-- The bias row's entry that a block element at column q meets: (0, q). -/
abbrev biasAtBlock (j : S5000x128.Idx) : S1x128.Idx := fun a => match a with
  | ⟨0, _⟩ => ⟨0, Nat.one_pos⟩
  | ⟨1, _⟩ => ⟨(j 1).val, (j 1).isLt⟩

/-- The same for an element of the whole array. -/
abbrev biasAt (i : S100000x128.Idx) : S1x128.Idx := fun a => match a with
  | ⟨0, _⟩ => ⟨0, Nat.one_pos⟩
  | ⟨1, _⟩ => ⟨(i 1).val, (i 1).isLt⟩

/-- What the region computes, as one function of its two input arrays: the bias row added to every row, clamped at zero. -/
def biasRelu (A : S100000x128.Idx → Elt F .f32) (B : S1x128.Idx → Elt F .f32) : S100000x128.Idx → Elt F .f32 :=
  fun i => FloatOps.maximumf (FloatOps.addf (A i) (B (biasAt i))) (FloatOps.ofBits .f32 0x00000000#32)

/-- The body's stored value at a block element: the block's element plus the bias at its column, clamped at zero
    (the two shape casts are of a shape to itself; the broadcast repeats the one row). -/
theorem pay_apply (v0 : Vec F S1x128 .f32) (v4 : Vec F S5000x128 .f32) (j : S5000x128.Idx) :
    k3_pay1 v0 v4 j = FloatOps.maximumf (FloatOps.addf (v4 j) (v0 (biasAtBlock j))) (FloatOps.ofBits .f32 0x00000000#32) := by
  unfold k3_pay1
  rw [shapeCast_self, shapeCast_self, shapeCast_self]
  show FloatOps.maximumf (FloatOps.addf (v4 j) (broadcastTo S5000x128 v0 broadcasts_S1x128_S5000x128 j)) _ = _
  rw [broadcastTo_apply v0 broadcasts_S1x128_S5000x128 j (biasAtBlock j) (fun a => match a with
    | ⟨0, _⟩ => by show 0 = if (1 : Nat) = 1 then 0 else (j 0).val; rw [if_pos rfl]
    | ⟨1, _⟩ => by show (j 1).val = if (128 : Nat) = 1 then 0 else (j 1).val; rw [if_neg (by decide)])]
  rfl

theorem hz : (![0, 0] : Fin 2 → Nat) = fun _ => 0 := funext fun a => by fin_cases a <;> rfl

/-- The printed index maps over the grid: point t reads and writes row block t, column block 0; the bias window stays at (0, 0). -/
theorem idx_facts : ∀ t : Fin cfg3.N, win3_0.index t (0 : Fin 2) = win3_2.index t (0 : Fin 2)
    ∧ win3_0.index t (1 : Fin 2) = 0 ∧ win3_2.index t (1 : Fin 2) = 0
    ∧ win3_1.index t (0 : Fin 2) = 0 ∧ win3_1.index t (1 : Fin 2) = 0
    ∧ win3_2.index t (0 : Fin 2) = t.val :=
  (by decide +kernel : ∀ t : Fin grid3.N, _)

section
variable (V : (c : Dev nD) → (b : Ref sig .tc) → Buf (Elt F) ((c : Thread nD τ).loc b))

/-- What point t writes back is block t of `biasRelu` of the two input arrays as the region finds them. -/
theorem flushed_eq (c : Dev nD) (t : Fin cfg3.N) :
    (dat3 V c).flushed 2 t = ((cfg3.win 2).blk t).view.read (Elt F) (biasRelu (V c main_v58) (V c main_v59)) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  obtain ⟨e0, e1, e2, e3, e4, e5⟩ := idx_facts t
  funext j
  show k3_pay1 (iblk3 V c 1 t) (iblk3 V c 0 t) j = biasRelu (V c main_v58) (V c main_v59) (((cfg3.win 2).blk t).view.emb j)
  refine (pay_apply (iblk3 V c 1 t) (iblk3 V c 0 t) j).trans ?_
  show FloatOps.maximumf (FloatOps.addf (V c main_v58 (((cfg3.win 0).blk t).view.emb j)) (V c main_v59 (((cfg3.win 1).blk t).view.emb (biasAtBlock j)))) _
     = FloatOps.maximumf (FloatOps.addf (V c main_v58 (((cfg3.win 2).blk t).view.emb j)) (V c main_v59 (biasAt (((cfg3.win 2).blk t).view.emb j)))) _
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb (biasAtBlock j) = biasAt (((cfg3.win 2).blk t).view.emb j) := by
    funext a; apply Fin.ext
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega
  rw [h0, h1]

/-- An index of the array is in point t's block iff each coordinate is in the block's range on its axis. -/
theorem mem_blk (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v60).slice (win3_2.rect t)).set ↔ _
  rw [View.set_slice_whole, Rect.mem_set_unit]
  exact Iff.rfl

/-- The twenty row blocks tile the array: row r is in the block of point r / 5000. -/
theorem cover (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  have hlt : (i 0).val / 5000 < grid3.N := lt_of_lt_of_eq (by omega) N_3.symm
  obtain ⟨e0, e1, e2, e3, e4, e5⟩ := idx_facts ⟨(i 0).val / 5000, hlt⟩
  have e5' : win3_2.index ⟨(i 0).val / 5000, hlt⟩ (0 : Fin 2) = (i 0).val / 5000 := e5
  refine ⟨⟨(i 0).val / 5000, hlt⟩, flush3_2 _, ?_⟩
  rw [mem_blk]
  intro a
  match a with
  | ⟨0, _⟩ => show win3_2.index ⟨(i 0).val / 5000, hlt⟩ (0 : Fin 2) * 5000 ≤ (i 0).val ∧ (i 0).val < win3_2.index ⟨(i 0).val / 5000, hlt⟩ (0 : Fin 2) * 5000 + 5000; omega
  | ⟨1, _⟩ => show win3_2.index ⟨(i 0).val / 5000, hlt⟩ (1 : Fin 2) * 128 ≤ (i 1).val ∧ (i 1).val < win3_2.index ⟨(i 0).val / 5000, hlt⟩ (1 : Fin 2) * 128 + 128; omega

/-- The output array after the region: `biasRelu` of the two input arrays as the region finds them. -/
theorem final (c : Dev nD) : (dat3 V c).arrAt 2 cfg3.N = biasRelu (V c main_v58) (V c main_v59) :=
  (dat3 V c).arrAt_eq_of_cover 2 (biasRelu (V c main_v58) (V c main_v59)) (fun t _ => flushed_eq V c t) cover

end

end Cert.KernelIdeal.Region3

end
-- ==== Proof.Fold1.lean ====
/-
  The kernel's result as the reference's function of the arguments, at the ideal values. The program is seven steps after
  the edge preparation: a matrix product (region), the gather-scale-scatter aggregation over the edges (host), bias and
  ReLU (region), a second product (region), a second aggregation (host), bias and ReLU (region), and the mean pool with
  the output layer (host). The host steps are the reference's own operations on the same buffers, so each holds the
  reference's stage as soon as its inputs do. Each region leaves one whole-array function of its inputs: the product is
  the host's dot_general entry by entry (both are the sum over the 128 contraction indices of left times right, a finite
  sum on the extended reals, which needs no order), and the bias step is the host's add of the broadcast bias row followed
  by the maximum with a broadcast zero, the kernel's reshaped [1, 128] bias reading the same entry b q at (0, q) as the
  host's broadcast of it. Buffers a step does not write keep what they held.
-/
import proofs.«151294_j29557964931482_1_alg».proof.Proof.Fold0
import proofs.«151294_j29557964931482_1_alg».proof.Proof.Region0
import proofs.«151294_j29557964931482_1_alg».proof.Proof.Region1
import proofs.«151294_j29557964931482_1_alg».proof.Proof.Region2
import proofs.«151294_j29557964931482_1_alg».proof.Proof.Region3

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo

open Cert.KernelIdeal.Fold

variable (m : (ℓ : Loc nD τ sig) → Buf (Elt Ideal) ℓ) (ρ : Dev nD → PrngReg)

/-! ## Each region's function is the reference's stage -/

/-- The first product: the sum over k of x (r, k) · w (k, q) is the host's dot_general at (r, q). -/
theorem product_stage31 (x0 : FVec Ideal S100000x128 .f32) (x3 : FVec Ideal S128x128 .f32) :
    Region0.rowsTimes x0 x3 = Cert.ReferenceIdeal.ReadP.val_main_v31 (F := Ideal) x0 x3 := by
  funext i
  rw [Cert.ReferenceIdeal.ReadP.val_main_v31_apply]
  rfl

/-- The first bias and ReLU: max (agg (r, q) + b q) 0, the kernel reading b through its reshape to one row. -/
theorem bias_stage47 (x0 : FVec Ideal S100000x128 .f32) (x1 : IVec S2x1600000 32) (x3 : FVec Ideal S128x128 .f32) (x4 : FVec Ideal S128 .f32) :
    Region1.biasRelu (Cert.ReferenceIdeal.ReadP.val_main_v43 (F := Ideal) x0 x1 x3) (shapeCast S1x128 x4 shapeCasts_S128_S1x128) = Cert.ReferenceIdeal.ReadP.val_main_v47 (F := Ideal) x0 x1 x3 x4 := by
  funext i
  rw [Cert.ReferenceIdeal.ReadP.val_main_v47_apply, Cert.ReferenceIdeal.ReadP.val_main_v46_apply, Cert.ReferenceIdeal.ReadP.val_main_v45_apply, Cert.ReferenceIdeal.ReadP.val_main_v44_apply, Cert.ReferenceIdeal.ReadP.val_main_call1_v0_apply, Cert.ReferenceIdeal.ReadP.val_main_call1_cst_apply]
  show FloatOps.maximumf (FloatOps.addf (Cert.ReferenceIdeal.ReadP.val_main_v43 (F := Ideal) x0 x1 x3 i) (shapeCast S1x128 x4 shapeCasts_S128_S1x128 (Region1.biasAt i))) (FloatOps.ofBits .f32 0x00000000#32) = _
  rw [shapeCast_apply x4 shapeCasts_S128_S1x128 (Region1.biasAt i) (Cert.ReferenceIdeal.ReadP.idx_main_v44 (Cert.ReferenceIdeal.ReadP.idx_main_v45 i)) (by
    rw [Shape.rowMajor_val_one, Shape.rowMajor_val_two]; show (i 1).val = 0 * 128 + (i 1).val; omega)]

/-- The second product. -/
theorem product_stage48 (x0 : FVec Ideal S100000x128 .f32) (x1 : IVec S2x1600000 32) (x3 : FVec Ideal S128x128 .f32) (x4 : FVec Ideal S128 .f32) (x5 : FVec Ideal S128x128 .f32) :
    Region2.rowsTimes (Cert.ReferenceIdeal.ReadP.val_main_v47 (F := Ideal) x0 x1 x3 x4) x5 = Cert.ReferenceIdeal.ReadP.val_main_v48 (F := Ideal) x0 x1 x3 x4 x5 := by
  funext i
  rw [Cert.ReferenceIdeal.ReadP.val_main_v48_apply]
  rfl

/-- The second bias and ReLU. -/
theorem bias_stage64 (x0 : FVec Ideal S100000x128 .f32) (x1 : IVec S2x1600000 32) (x3 : FVec Ideal S128x128 .f32) (x4 : FVec Ideal S128 .f32) (x5 : FVec Ideal S128x128 .f32) (x6 : FVec Ideal S128 .f32) :
    Region3.biasRelu (Cert.ReferenceIdeal.ReadP.val_main_v60 (F := Ideal) x0 x1 x3 x4 x5) (shapeCast S1x128 x6 shapeCasts_S128_S1x128) = Cert.ReferenceIdeal.ReadP.val_main_v64 (F := Ideal) x0 x1 x3 x4 x5 x6 := by
  funext i
  rw [Cert.ReferenceIdeal.ReadP.val_main_v64_apply, Cert.ReferenceIdeal.ReadP.val_main_v63_apply, Cert.ReferenceIdeal.ReadP.val_main_v62_apply, Cert.ReferenceIdeal.ReadP.val_main_v61_apply, Cert.ReferenceIdeal.ReadP.val_main_call2_v0_apply, Cert.ReferenceIdeal.ReadP.val_main_call2_cst_apply]
  show FloatOps.maximumf (FloatOps.addf (Cert.ReferenceIdeal.ReadP.val_main_v60 (F := Ideal) x0 x1 x3 x4 x5 i) (shapeCast S1x128 x6 shapeCasts_S128_S1x128 (Region3.biasAt i))) (FloatOps.ofBits .f32 0x00000000#32) = _
  rw [shapeCast_apply x6 shapeCasts_S128_S1x128 (Region3.biasAt i) (Cert.ReferenceIdeal.ReadP.idx_main_v61 (Cert.ReferenceIdeal.ReadP.idx_main_v62 i)) (by
    rw [Shape.rowMajor_val_one, Shape.rowMajor_val_two]; show (i 1).val = 0 * 128 + (i 1).val; omega)]

/-! ## The arguments at the boundaries where a later step reads them (no step writes an argument) -/

theorem W9_arg (r : Ref sig .tc) (c : Dev nD) (hr : W10 m ρ c (Proc.devRef .tc r) = W9 m ρ c (Proc.devRef .tc r)) (h10 : W10 m ρ c (Proc.devRef .tc r) = m ((c.tc : Thread nD τ).loc r)) :
    W9 m ρ c (Proc.devRef .tc r) = m ((c.tc : Thread nD τ).loc r) := hr.symm.trans h10
theorem W9_arg2 (c : Dev nD) : W9 m ρ c (Proc.devRef .tc main_arg2) = (m ((c.tc : Thread nD τ).loc main_arg2)) :=
  W9_arg m ρ main_arg2 c (by dsimp only [W10, hostOps4]; after_results <;> rfl : W10 m ρ c (Proc.devRef .tc main_arg2) = W9 m ρ c (Proc.devRef .tc main_arg2)) (W10_main_arg2 m ρ c)
theorem W9_arg7 (c : Dev nD) : W9 m ρ c (Proc.devRef .tc main_arg7) = (m ((c.tc : Thread nD τ).loc main_arg7)) :=
  W9_arg m ρ main_arg7 c (by dsimp only [W10, hostOps4]; after_results <;> rfl : W10 m ρ c (Proc.devRef .tc main_arg7) = W9 m ρ c (Proc.devRef .tc main_arg7)) (W10_main_arg7 m ρ c)
theorem W9_arg8 (c : Dev nD) : W9 m ρ c (Proc.devRef .tc main_arg8) = (m ((c.tc : Thread nD τ).loc main_arg8)) :=
  W9_arg m ρ main_arg8 c (by dsimp only [W10, hostOps4]; after_results <;> rfl : W10 m ρ c (Proc.devRef .tc main_arg8) = W9 m ρ c (Proc.devRef .tc main_arg8)) (W10_main_arg8 m ρ c)
theorem W7_arg6 (c : Dev nD) : W7 m ρ c (Proc.devRef .tc main_arg6) = (m ((c.tc : Thread nD τ).loc main_arg6)) := by
  have h8 := (by dsimp only [W8, hostOps3]; after_results <;> rfl : W8 m ρ c (Proc.devRef .tc main_arg6) = W7 m ρ c (Proc.devRef .tc main_arg6))
  have h9 : W9 m ρ c (Proc.devRef .tc main_arg6) = W8 m ρ c (Proc.devRef .tc main_arg6) := W9_of_ne m ρ c main_arg6 (by decide)
  have h10 := (by dsimp only [W10, hostOps4]; after_results <;> rfl : W10 m ρ c (Proc.devRef .tc main_arg6) = W9 m ρ c (Proc.devRef .tc main_arg6))
  exact (h8.symm.trans (h9.symm.trans h10.symm)).trans (W10_main_arg6 m ρ c)
theorem W6_arg5 (c : Dev nD) : W6 m ρ c (Proc.devRef .tc main_arg5) = (m ((c.tc : Thread nD τ).loc main_arg5)) := by
  have h7 : W7 m ρ c (Proc.devRef .tc main_arg5) = W6 m ρ c (Proc.devRef .tc main_arg5) :=
    (W7_arr m ρ c 1).trans (((dat2 (V6 m ρ) c).arrAt_in 1 rfl _).trans (A_eq2 (V6 m ρ) c 1))
  have h8 := (by dsimp only [W8, hostOps3]; after_results <;> rfl : W8 m ρ c (Proc.devRef .tc main_arg5) = W7 m ρ c (Proc.devRef .tc main_arg5))
  have h9 : W9 m ρ c (Proc.devRef .tc main_arg5) = W8 m ρ c (Proc.devRef .tc main_arg5) := W9_of_ne m ρ c main_arg5 (by decide)
  have h10 := (by dsimp only [W10, hostOps4]; after_results <;> rfl : W10 m ρ c (Proc.devRef .tc main_arg5) = W9 m ρ c (Proc.devRef .tc main_arg5))
  exact (h7.symm.trans (h8.symm.trans (h9.symm.trans h10.symm))).trans (W10_main_arg5 m ρ c)

/-! ## After the first product -/

theorem W4_v31 (c : Dev nD) : W4 m ρ c (Proc.devRef .tc main_v31) = Cert.ReferenceIdeal.ReadP.val_main_v31 (F := Ideal) (m ((c.tc : Thread nD τ).loc main_arg0)) (m ((c.tc : Thread nD τ).loc main_arg3)) := by
  refine (W4_arr m ρ c 2).trans ?_
  rw [Region0.final (V3 m ρ) c]
  show Region0.rowsTimes (W3 m ρ c (Proc.devRef .tc main_arg0)) (W3 m ρ c (Proc.devRef .tc main_arg3)) = _
  rw [W3_arg0, W3_arg3]
  exact product_stage31 _ _

/-! ## After the first aggregation -/

set_option maxHeartbeats 2000000 in
theorem W5_v43 (c : Dev nD) : W5 m ρ c (Proc.devRef .tc main_v43) = Cert.ReferenceIdeal.ReadP.val_main_v43 (F := Ideal) (m ((c.tc : Thread nD τ).loc main_arg0)) (m ((c.tc : Thread nD τ).loc main_arg1)) (m ((c.tc : Thread nD τ).loc main_arg3)) := by
  dsimp only [W5, hostOps1]
  after_results
  rw [W4_v3, W4_v6, W4_v30, W4_v31]
  rfl
theorem W5_v44 (c : Dev nD) : W5 m ρ c (Proc.devRef .tc main_v44) = shapeCast S1x128 (m ((c.tc : Thread nD τ).loc main_arg4)) shapeCasts_S128_S1x128 := by
  dsimp only [W5, hostOps1]
  after_results
  rw [W4_arg4]
  rfl
theorem W5_v3 (c : Dev nD) : W5 m ρ c (Proc.devRef .tc main_v3) = Cert.ReferenceIdeal.ReadP.val_main_v3 (F := Ideal) (m ((c.tc : Thread nD τ).loc main_arg1)) :=
  ((by dsimp only [W5, hostOps1]; after_results <;> rfl : W5 m ρ c (Proc.devRef .tc main_v3) = W4 m ρ c (Proc.devRef .tc main_v3))).trans (W4_v3 m ρ c)
theorem W5_v6 (c : Dev nD) : W5 m ρ c (Proc.devRef .tc main_v6) = Cert.ReferenceIdeal.ReadP.val_main_v6 (F := Ideal) (m ((c.tc : Thread nD τ).loc main_arg1)) :=
  ((by dsimp only [W5, hostOps1]; after_results <;> rfl : W5 m ρ c (Proc.devRef .tc main_v6) = W4 m ρ c (Proc.devRef .tc main_v6))).trans (W4_v6 m ρ c)
theorem W5_v30 (c : Dev nD) : W5 m ρ c (Proc.devRef .tc main_v30) = Cert.ReferenceIdeal.ReadP.val_main_v30 (F := Ideal) (m ((c.tc : Thread nD τ).loc main_arg1)) :=
  ((by dsimp only [W5, hostOps1]; after_results <;> rfl : W5 m ρ c (Proc.devRef .tc main_v30) = W4 m ρ c (Proc.devRef .tc main_v30))).trans (W4_v30 m ρ c)

/-! ## After the first bias and ReLU -/

theorem W6_v45 (c : Dev nD) : W6 m ρ c (Proc.devRef .tc main_v45) = Cert.ReferenceIdeal.ReadP.val_main_v47 (F := Ideal) (m ((c.tc : Thread nD τ).loc main_arg0)) (m ((c.tc : Thread nD τ).loc main_arg1)) (m ((c.tc : Thread nD τ).loc main_arg3)) (m ((c.tc : Thread nD τ).loc main_arg4)) := by
  refine (W6_arr m ρ c 2).trans ?_
  rw [Region1.final (V5 m ρ) c]
  show Region1.biasRelu (W5 m ρ c (Proc.devRef .tc main_v43)) (W5 m ρ c (Proc.devRef .tc main_v44)) = _
  rw [W5_v43, W5_v44]
  exact bias_stage47 _ _ _ _
theorem W6_v3 (c : Dev nD) : W6 m ρ c (Proc.devRef .tc main_v3) = Cert.ReferenceIdeal.ReadP.val_main_v3 (F := Ideal) (m ((c.tc : Thread nD τ).loc main_arg1)) :=
  (W6_of_ne m ρ c main_v3 (by decide)).trans (W5_v3 m ρ c)
theorem W6_v6 (c : Dev nD) : W6 m ρ c (Proc.devRef .tc main_v6) = Cert.ReferenceIdeal.ReadP.val_main_v6 (F := Ideal) (m ((c.tc : Thread nD τ).loc main_arg1)) :=
  (W6_of_ne m ρ c main_v6 (by decide)).trans (W5_v6 m ρ c)
theorem W6_v30 (c : Dev nD) : W6 m ρ c (Proc.devRef .tc main_v30) = Cert.ReferenceIdeal.ReadP.val_main_v30 (F := Ideal) (m ((c.tc : Thread nD τ).loc main_arg1)) :=
  (W6_of_ne m ρ c main_v30 (by decide)).trans (W5_v30 m ρ c)

/-! ## After the second product -/

theorem W7_v46 (c : Dev nD) : W7 m ρ c (Proc.devRef .tc main_v46) = Cert.ReferenceIdeal.ReadP.val_main_v48 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  refine (W7_arr m ρ c 2).trans ?_
  rw [Region2.final (V6 m ρ) c]
  show Region2.rowsTimes (W6 m ρ c (Proc.devRef .tc main_v45)) (W6 m ρ c (Proc.devRef .tc main_arg5)) = _
  rw [W6_v45, W6_arg5]
  exact product_stage48 _ _ _ _ _
theorem W7_v3 (c : Dev nD) : W7 m ρ c (Proc.devRef .tc main_v3) = Cert.ReferenceIdeal.ReadP.val_main_v3 (F := Ideal) (m ((c.tc : Thread nD τ).loc main_arg1)) :=
  (W7_of_ne m ρ c main_v3 (by decide)).trans (W6_v3 m ρ c)
theorem W7_v6 (c : Dev nD) : W7 m ρ c (Proc.devRef .tc main_v6) = Cert.ReferenceIdeal.ReadP.val_main_v6 (F := Ideal) (m ((c.tc : Thread nD τ).loc main_arg1)) :=
  (W7_of_ne m ρ c main_v6 (by decide)).trans (W6_v6 m ρ c)
theorem W7_v30 (c : Dev nD) : W7 m ρ c (Proc.devRef .tc main_v30) = Cert.ReferenceIdeal.ReadP.val_main_v30 (F := Ideal) (m ((c.tc : Thread nD τ).loc main_arg1)) :=
  (W7_of_ne m ρ c main_v30 (by decide)).trans (W6_v30 m ρ c)

/-! ## After the second aggregation -/

set_option maxHeartbeats 2000000 in
theorem W8_v58 (c : Dev nD) : W8 m ρ c (Proc.devRef .tc main_v58) = Cert.ReferenceIdeal.ReadP.val_main_v60 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  dsimp only [W8, hostOps3]
  after_results
  rw [W7_v3, W7_v6, W7_v30, W7_v46]
  rfl
theorem W8_v59 (c : Dev nD) : W8 m ρ c (Proc.devRef .tc main_v59) = shapeCast S1x128 (m ((c.tc : Thread nD τ).loc main_arg6)) shapeCasts_S128_S1x128 := by
  dsimp only [W8, hostOps3]
  after_results
  rw [W7_arg6]
  rfl

/-! ## After the second bias and ReLU -/

theorem W9_v60 (c : Dev nD) : W9 m ρ c (Proc.devRef .tc main_v60) = Cert.ReferenceIdeal.ReadP.val_main_v64 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  refine (W9_arr m ρ c 2).trans ?_
  rw [Region3.final (V8 m ρ) c]
  show Region3.biasRelu (W8 m ρ c (Proc.devRef .tc main_v58)) (W8 m ρ c (Proc.devRef .tc main_v59)) = _
  rw [W8_v58, W8_v59]
  exact bias_stage64 _ _ _ _ _ _

/-! ## The result: the mean pool over the graph ids and the output layer -/

set_option maxHeartbeats 2000000 in
theorem W10_v76 (c : Dev nD) : W10 m ρ c (Proc.devRef .tc main_v76) = Cert.ReferenceIdeal.ReadP.val_main_v80 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  dsimp only [W10, hostOps4]
  after_results
  rw [W9_v60, W9_arg2, W9_arg7, W9_arg8]
  rfl

end Cert.KernelIdeal.Fold

end
-- ==== Proof.lean ====
/-
  A two-layer graph convolution with a mean pool and a linear output layer, on 100000 nodes with 128 features and 1600000
  edges: the kernel against its jnp reference, equal as extended reals.

  Both programs compute, from the edge list with a self loop appended for every node, the in-degree of every node, its inverse
  square root where the degree is positive (zero elsewhere) and the coefficient dinv[src]·dinv[dst] of every edge; then twice
      h ← max (scatter_add over dst of (h·W)[src] · coefficient  +  b, 0),
  then the mean of h over the nodes of each of the 512 graphs (the sum divided by max (count, 1)), times Wout, plus bout.
  The kernel differs from the reference in two places only, each met twice: the product h·W is computed by a Pallas region
  in twenty blocks of 5000 rows, each block a matrix product into a zero accumulator after a change of float format, and
  the bias-add and ReLU are fused into a second Pallas region over the same twenty row blocks. Everything else — the index
  arithmetic, the gathers, the scatter-adds, the pooling — is the same host operation with the same constants on both sides.

  At the ideal values a change of float format is the identity, and entry (r, q) of a block's product is the sum over the 128
  contraction indices of h (r, k)·W (k, q), which is the reference's dot_general at (r, q): a finite sum on the extended
  reals, commutative and associative, so no order and no finiteness of the inputs is needed. The fused step stores
  max (agg (r, q) + b q, 0), which is the reference's maximum of agg + broadcast b with a broadcast zero. The row blocks tile
  the rows, so each region leaves one function of its input arrays, index by index (Region0 … Region3); the host operations
  between the regions are then the reference's own stages of the same values (Fold0, Fold1), and the kernel's result is the
  reference's last stage of the arguments. The run of the kernel with its result buffer named is KernelRun; the reference's
  run and its stages are RefRunPatched and RefReadPatched. The idealization pass rewrote no operation, so the kernel's
  sanctioned idealization is the kernel's own text read at the ideal values.
-/
import proofs.«151294_j29557964931482_1_alg».proof.Defs
import proofs.«151294_j29557964931482_1_alg».proof.Proof.Gen.Kernel
import proofs.«151294_j29557964931482_1_alg».proof.Proof.Gen.Kernel.Skeleton
import proofs.«151294_j29557964931482_1_alg».proof.Proof.Gen.Kernel.Launch
import proofs.«151294_j29557964931482_1_alg».proof.Proof.Gen.Kernel.Points
import proofs.«151294_j29557964931482_1_alg».proof.Proof.Gen.Kernel.Frame
import proofs.«151294_j29557964931482_1_alg».proof.Proof.Gen.KernelIdeal
import proofs.«151294_j29557964931482_1_alg».proof.Proof.Gen.KernelIdeal.Skeleton
import proofs.«151294_j29557964931482_1_alg».proof.Proof.Gen.KernelIdeal.Launch
import proofs.«151294_j29557964931482_1_alg».proof.Proof.Gen.KernelIdeal.Points
import proofs.«151294_j29557964931482_1_alg».proof.Proof.Gen.KernelIdeal.Frame
import proofs.«151294_j29557964931482_1_alg».proof.Proof.Gen.ReferenceIdeal
import proofs.«151294_j29557964931482_1_alg».proof.Proof.Gen.Pre_finite_inputs
import proofs.«151294_j29557964931482_1_alg».proof.Proof.KernelRun
import proofs.«151294_j29557964931482_1_alg».proof.Proof.RefRunPatched
import proofs.«151294_j29557964931482_1_alg».proof.Proof.RefReadPatched
import proofs.«151294_j29557964931482_1_alg».proof.Proof.Fold1
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the kernel at the ideal values. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization pass rewrote nothing. -/
theorem preserves : Cert.preserves_Kernel_KernelIdeal := trivial

/-- From memories agreeing on the nine arguments both programs end with the reference's last stage of those arguments in
    their result buffers: the kernel by the fold through its four regions, the reference by its own run. -/
theorem algebraic : Cert.algebraic_KernelIdeal_ReferenceIdeal := by
  intro m ρ m' ρ' _ hagree
  refine ⟨fun c => Cert.ReferenceIdeal.ReadP.val_main_v80 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono (fun r h c => ⟨(h c).1.trans (Cert.KernelIdeal.Fold.W10_v76 m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v80_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
